-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x512 : Shape := ⟨3, ![2, 512, 512]⟩
abbrev S64x512 : Shape := ⟨2, ![64, 512]⟩
abbrev S512x64 : Shape := ⟨2, ![512, 64]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S512x64 : S_.BroadcastsInDim S512x64 (![] : Fin 0 → Fin S512x64.rank)
  reducesTo_S512x64_S_d0_1 : S512x64.ReducesTo [0, 1] S_

variable [Facts]

def fn_part1 {F : FTy → Type} [FloatOps F] (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  main_v18

def fn {F : FTy → Type} [FloatOps F] (main_arg0 : FVec F S2x512x512 .f32) (main_arg1 : FVec F S64x512 .f32) (main_arg2 : FVec F S64x512 .f32) (main_arg3 : FVec F S512x64 .f32) : IVec S_ 1 :=
  let main_v0 : FVec F S2x512x512 .f32 := Host.absf main_arg0
  let main_cst : FVec F S_ .f32 := constant S_ .f32 0x7F800000#32
  let main_v1 : FVec F S2x512x512 .f32 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_v13 main_v16
-- ==== Kernel.lean ====
abbrev S2x512x512 : Shape := ⟨3, ![2, 512, 512]⟩
abbrev S64x512 : Shape := ⟨2, ![64, 512]⟩
abbrev S512x64 : Shape := ⟨2, ![512, 64]⟩
abbrev S2x512x512x512 : Shape := ⟨4, ![2, 512, 512, 512]⟩
abbrev S1x32x512 : Shape := ⟨3, ![1, 32, 512]⟩
abbrev S1x128x512 : Shape := ⟨3, ![1, 128, 512]⟩
abbrev S1x32x128x512 : Shape := ⟨4, ![1, 32, 128, 512]⟩
abbrev S32x512 : Shape := ⟨2, ![32, 512]⟩
abbrev S128x512 : Shape := ⟨2, ![128, 512]⟩
abbrev S32x64 : Shape := ⟨2, ![32, 64]⟩
abbrev S128x64 : Shape := ⟨2, ![128, 64]⟩
abbrev S32x1x64 : Shape := ⟨3, ![32, 1, 64]⟩
abbrev S1x128x64 : Shape := ⟨3, ![1, 128, 64]⟩
abbrev S32x128x64 : Shape := ⟨3, ![32, 128, 64]⟩
abbrev S4096x64 : Shape := ⟨2, ![4096, 64]⟩
abbrev S4096x512 : Shape := ⟨2, ![4096, 512]⟩
abbrev S32x128x512 : Shape := ⟨3, ![32, 128, 512]⟩

abbrev nBuf : Space → Nat
  | .hbm => 8
  | .vmem => 9
  | .smem => 0
  | _ => 0

abbrev bufTy : (tb : Table) → Fin (tcTables nBuf tb) → BufTy
  | .hbm, ⟨0, _⟩ => ⟨S2x512x512, .f32⟩
  | .hbm, ⟨1, _⟩ => ⟨S64x512, .f32⟩
  | .hbm, ⟨2, _⟩ => ⟨S64x512, .f32⟩
  | .hbm, ⟨3, _⟩ => ⟨S512x64, .f32⟩
  | .hbm, ⟨4, _⟩ => ⟨S512x64, .f32⟩
  | .hbm, ⟨5, _⟩ => ⟨S512x64, .f32⟩
  | .hbm, ⟨6, _⟩ => ⟨S64x512, .f32⟩
  | .hbm, ⟨7, _⟩ => ⟨S2x512x512x512, .f32⟩
  | .local _ .vmem, ⟨0, _⟩ => ⟨S1x32x512, .f32⟩
  | .local _ .vmem, ⟨1, _⟩ => ⟨S1x32x512, .f32⟩
  | .local _ .vmem, ⟨2, _⟩ => ⟨S1x128x512, .f32⟩
  | .local _ .vmem, ⟨3, _⟩ => ⟨S1x128x512, .f32⟩
  | .local _ .vmem, ⟨4, _⟩ => ⟨S512x64, .f32⟩
  | .local _ .vmem, ⟨5, _⟩ => ⟨S512x64, .f32⟩
  | .local _ .vmem, ⟨6, _⟩ => ⟨S64x512, .f32⟩
  | .local _ .vmem, ⟨7, _⟩ => ⟨S1x32x128x512, .f32⟩
  | .local _ .vmem, ⟨8, _⟩ => ⟨S1x32x128x512, .f32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x32x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  transposes_S64x512_S512x64_1_0 : S64x512.Transposes [1, 0] S512x64
  transposes_S512x64_S64x512_1_0 : S512x64.Transposes [1, 0] S64x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  bitsLt_bf16_f32 : FTy.bits .bf16 < FTy.bits .f32
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x512_S64x512_0_0 : ∀ a, (![0, 0] : Fin 2 → Nat) a + S64x512.size a ≤ S64x512.size a
  h_S64x512 : 0 < S64x512.numel
  shapeCasts_S64x512_S64x512 : S64x512.ShapeCasts S64x512
  shapeCasts_S32x64_S32x1x64 : S32x64.ShapeCasts S32x1x64
  shapeCasts_S128x64_S1x128x64 : S128x64.ShapeCasts S1x128x64
  broadcasts_S32x1x64_S32x128x64 : S32x1x64.Broadcasts S32x128x64
  broadcasts_S1x128x64_S32x128x64 : S1x128x64.Broadcasts S32x128x64
  shapeCasts_S32x128x64_S4096x64 : S32x128x64.ShapeCasts S4096x64
  shapeCasts_S4096x512_S32x128x512 : S4096x512.ShapeCasts S32x128x512
  inb_S1x32x128x512_S1x32x128x512_0_0_0_0 : ∀ a, (![0, 0, 0, 0] : Fin 4 → Nat) a + S1x32x128x512.size a ≤ S1x32x128x512.size a
  h_S1x32x128x512 : 0 < S1x32x128x512.numel
  shapeCasts_S1x32x128x512_S32x128x512 : S1x32x128x512.ShapeCasts S32x128x512
  shapeCasts_S32x128x512_S1x32x128x512 : S32x128x512.ShapeCasts S1x32x128x512
  dot_S32x512_S512x64_S32x64_1_0_0_1_n_n_wf : DotDims.WF S32x512 S512x64 S32x64 [1] [0] [0] [1] [] []
  dot_S128x512_S512x64_S128x64_1_0_0_1_n_n_wf : DotDims.WF S128x512 S512x64 S128x64 [1] [0] [0] [1] [] []
  dot_S4096x64_S64x512_S4096x512_1_0_0_1_n_n_wf : DotDims.WF S4096x64 S64x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S2x512x512.size a
  hwx0_0 : ∀ i : grid0.Coords, EltTy.bits .f32 = 32 ∨ (Rect.block (s := S2x512x512) S1x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S2x512x512.size a
  hwx0_1 : ∀ i : grid0.Coords, EltTy.bits .f32 = 32 ∨ (Rect.block (s := S2x512x512) S1x128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x512.size a ≤ S64x512.size a
  hwx0_4 : ∀ i : grid0.Coords, EltTy.bits .f32 = 32 ∨ (Rect.block (s := S64x512) S64x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x128x512.size a ≤ S2x512x512x512.size a
  hwx0_5 : ∀ i : grid0.Coords, EltTy.bits .f32 = 32 ∨ (Rect.block (s := S2x512x512x512) S1x32x128x512.size (cc0_transform_5 i) (hinb0_5 i)).WholeWords (EltTy.packing .f32)

variable [Facts₀]

def dot_S32x512_S512x64_S32x64_1_0_0_1_n_n : DotDims S32x512 S512x64 S32x64 where
  lhsContracting := [1]
  rhsContracting := [0]
  lhsNonContracting := [0]
  rhsNonContracting := [1]
  lhsBatch := []
  rhsBatch := []
  wf := dot_S32x512_S512x64_S32x64_1_0_0_1_n_n_wf
def dot_S128x512_S512x64_S128x64_1_0_0_1_n_n : DotDims S128x512 S512x64 S128x64 where
  lhsContracting := [1]
  rhsContracting := [0]
  lhsNonContracting := [0]
  rhsNonContracting := [1]
  lhsBatch := []
  rhsBatch := []
  wf := dot_S128x512_S512x64_S128x64_1_0_0_1_n_n_wf
def dot_S4096x64_S64x512_S4096x512_1_0_0_1_n_n : DotDims S4096x64 S64x512 S4096x512 where
  lhsContracting := [1]
  rhsContracting := [0]
  lhsNonContracting := [0]
  rhsNonContracting := [1]
  lhsBatch := []
  rhsBatch := []
  wf := dot_S4096x64_S64x512_S4096x512_1_0_0_1_n_n_wf

abbrev win0_0 : Pipeline.Window sig grid0 :=
  Pipeline.Window.ofSpec (Memref.whole main_arg0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S64x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x32x128x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x512x512 : Shape := ⟨3, ![2, 512, 512]⟩
abbrev S64x512 : Shape := ⟨2, ![64, 512]⟩
abbrev S512x64 : Shape := ⟨2, ![512, 64]⟩
abbrev S2x512x64 : Shape := ⟨3, ![2, 512, 64]⟩
abbrev S2x512x1x64 : Shape := ⟨4, ![2, 512, 1, 64]⟩
abbrev S2x1x512x64 : Shape := ⟨4, ![2, 1, 512, 64]⟩
abbrev S2x512x512x64 : Shape := ⟨4, ![2, 512, 512, 64]⟩
abbrev S2x512x512x512 : Shape := ⟨4, ![2, 512, 512, 512]⟩

abbrev nBuf : Space → Nat
  | .hbm => 12
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S64x512, .f32⟩
  | .hbm, ⟨2, _⟩ => ⟨S64x512, .f32⟩
  | .hbm, ⟨3, _⟩ => ⟨S512x64, .f32⟩
  | .hbm, ⟨4, _⟩ => ⟨S2x512x64, .f32⟩
  | .hbm, ⟨5, _⟩ => ⟨S2x512x64, .f32⟩
  | .hbm, ⟨6, _⟩ => ⟨S2x512x1x64, .f32⟩
  | .hbm, ⟨7, _⟩ => ⟨S2x1x512x64, .f32⟩
  | .hbm, ⟨8, _⟩ => ⟨S2x512x512x64, .f32⟩
  | .hbm, ⟨9, _⟩ => ⟨S2x512x512x64, .f32⟩
  | .hbm, ⟨10, _⟩ => ⟨S2x512x512x64, .f32⟩
  | .hbm, ⟨11, _⟩ => ⟨S2x512x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S2x512x64_S2x512x1x64_0_1_3 : S2x512x64.BroadcastsInDim S2x512x1x64 (![0, 1, 3] : Fin 3 → Fin S2x512x1x64.rank)
  bcast_S2x512x64_S2x1x512x64_0_2_3 : S2x512x64.BroadcastsInDim S2x1x512x64 (![0, 2, 3] : Fin 3 → Fin S2x1x512x64.rank)
  bcast_S2x512x1x64_S2x512x512x64_0_1_2_3 : S2x512x1x64.BroadcastsInDim S2x512x512x64 (![0, 1, 2, 3] : Fin 4 → Fin S2x512x512x64.rank)
  bcast_S2x1x512x64_S2x512x512x64_0_1_2_3 : S2x1x512x64.BroadcastsInDim S2x512x512x64 (![0, 1, 2, 3] : Fin 4 → Fin S2x512x512x64.rank)
  dot_S2x512x512_S64x512_S2x512x64_2_1_01_0_n_n_wf : DotDims.WF S2x512x512 S64x512 S2x512x64 [2] [1] [0, 1] [0] [] []
  dot_S2x512x512x64_S512x64_S2x512x512x512_3_1_012_0_n_n_wf : DotDims.WF S2x512x512x64 S512x64 S2x512x512x512 [3] [1] [0, 1, 2] [0] [] []

variable [Facts₀]

def dot_S2x512x512_S64x512_S2x512x64_2_1_01_0_n_n : DotDims S2x512x512 S64x512 S2x512x64 where
  lhsContracting := [2]
  rhsContracting := [1]
  lhsNonContracting := [0, 1]
  rhsNonContracting := [0]
  lhsBatch := []
  rhsBatch := []
  wf := dot_S2x512x512_S64x512_S2x512x64_2_1_01_0_n_n_wf
def dot_S2x512x512x64_S512x64_S2x512x512x512_3_1_012_0_n_n : DotDims S2x512x512x64 S512x64 S2x512x512x512 where
  lhsContracting := [3]
  rhsContracting := [1]
  lhsNonContracting := [0, 1, 2]
  rhsNonContracting := [0]
  lhsBatch := []
  rhsBatch := []
  wf := dot_S2x512x512x64_S512x64_S2x512x512x512_3_1_012_0_n_n_wf

class Facts : Prop extends Facts₀ where

variable [Facts]
-- ==== Proof.LibFrameShared.lean ====
/-
  The frame run of a one-region pipeline kernel whose INPUT windows may share an array.

  When one array of @main is handed to a kernel through several input windows, the windows' arrays are no longer
  pairwise distinct buffers, so the full share of the shared buffer has to be dealt among the windows that read it.
  The launch theorem for that layout asks the certificate how the distinct buffers behind the arrays, each whole at
  the full share, make up the proof data's arrays at entry (`hsplit`). This file states the frame run on top of it, in
  the same form as the frame run for distinct arrays: the region invariant is the core's scoped rest (the kernel's
  scratch, at some contents), every unscoped buffer that is no window's array bypasses the region and is read back at
  the end unchanged, and every window's array ends at the contents the proof data compute (`FramePost`).
  It also lists the distinct buffers behind the arrays as a chain of points-tos (`arrBufs_eq_of_list`).
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}

section Listed

variable {Ix : Type} [DecidableEq Ix] {Name : Type} [DecidableEq Name] {U : Type} [URA U] {Lvl : Type}

/-- The distinct buffers behind the windows' arrays, listed: `arrBufs` is the chain of their points-tos, each whole
    at the full share at contents `V`. -/
theorem arrBufs_eq_of_list {gr : Nat} {W : Nat} (win : Fin W → WinSpec sig gr) (c : Dev nD)
    (V : (b : Ref sig .tc) → Buf Val ((c.tc : Thread nD τ).loc b)) (l : List (Ref sig .tc))
    (h : Finset.univ.image (arrRef win) = l.toFinset) (hl : l.Nodup) :
    (arrBufs (Ix := Ix) (Name := Name) (U := U) (Lvl := Lvl) win c V : sProp (MT nD τ sig Ix Val Name U Lvl))
      = BI.bigSepL l fun b => ((c.tc : Thread nD τ).loc b) ↦{fullShare} V b := by
  unfold arrBufs; exact BI.bigSep_eq_bigSepL_of_eq l h hl _

end Listed

section Frame

variable {Λ₀ : SL.Sem.Labels} {P : Type} [Fintype P] [DecidableEq P] [∀ e, Nonempty (Val e)]

local notation "𝕄" => MT nD τ sig Unit Val ℕ (UR sig nD τ) ℕ

/-- THE FRAME RUN of a one-region kernel with no semaphore of its own whose input windows may share arrays: from any
    memory with zero counters every weakly fair execution of @main on the TensorCores terminates, and in every final
    state each window's array holds what the proof data compute (`Dat.arrAt … N`) and every other unscoped buffer what
    it held at the region's entry (`V`). The certificate supplies the layout facts one by one, the proof data with
    the scoped rest as the invariant at the first and after the last point (`hin`, `hout`), the body obligation,
    @main up to the region (`hmain`), and how the buffers behind the arrays are dealt among the windows (`hsplit`). -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H; isplitr
      · iempintro
      · iexact H)
    (hin := fun c => (show _ ⊢ (scopedRest (cfgs p).spec c : sProp 𝕄) from by iintro ⟨-, H⟩; iexact H).trans (hin c))
    (hout := fun c => (hout c).trans (by
      iintro H; isplitr
      · iempintro
      · iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Frame

end Idealize.ShloMosaic.Pipeline

end
-- ==== Proof.KernelFrame.lean ====
/-
  The frame of `Kernel`: @main transposes the three weight matrices on the host and then runs ONE pipelined kernel
  over the grid (b, i, j) ∈ 2 × 16 × 4. The kernel reads the activation array `t` through TWO input windows — rows
  32·i … 32·i+31 of batch b (window 0) and rows 128·j … 128·j+127 of batch b (window 1) — so the two windows stand on
  ONE buffer, whose full share is dealt between them in halves; the transposed weights are whole-array windows fetched
  once, and the output window's block (b, i, j) is written back at every point.

  Proved here, for every float instance `F`: the contents of the buffers when the region is entered (`V`: the
  arguments as launched, the three transposes computed), what each input window's staging buffer holds at each point
  (its block, `iblk`), what the body leaves in the output window's buffer (`out5`: its one whole-buffer store, the
  payload of the loaded blocks), the body's triple, the proof data, the body obligation, how the shared buffer is
  split between the two windows, the run (`run_main`) and the frame (`frame`).
-/
import proofs.«166823_j40913858461802_2_alg».proof.Proof.Gen.Kernel.Launch
import proofs.«166823_j40913858461802_2_alg».proof.Proof.Gen.Kernel.Skeleton
import proofs.«166823_j40913858461802_2_alg».proof.Proof.Gen.Kernel.Points
import proofs.«166823_j40913858461802_2_alg».proof.Proof.LibFrameShared
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the three host transposes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host transposes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument: the region finds each as launched. -/
theorem V_arg (b : Ref sig .tc) (h0 : b ≠ main_v0) (h1 : b ≠ main_v1) (h2 : b ≠ main_v2) (c : Dev nD) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

theorem V_main_arg0 (c : Dev nD) : V m c main_arg0 = m ((c : Thread nD τ).loc main_arg0) := V_arg m main_arg0 (by decide) (by decide) (by decide) c
theorem V_main_arg1 (c : Dev nD) : V m c main_arg1 = m ((c : Thread nD τ).loc main_arg1) := V_arg m main_arg1 (by decide) (by decide) (by decide) c
theorem V_main_arg2 (c : Dev nD) : V m c main_arg2 = m ((c : Thread nD τ).loc main_arg2) := V_arg m main_arg2 (by decide) (by decide) (by decide) c
theorem V_main_arg3 (c : Dev nD) : V m c main_arg3 = m ((c : Thread nD τ).loc main_arg3) := V_arg m main_arg3 (by decide) (by decide) (by decide) c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: unfetched, the block
    index has not moved since the last fetch and the body leaves the block in place. One lemma per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0 : Rect S1x32x512 := Rect.unit (s := S1x32x512) ![0, 0, 0] S1x32x512.size inb_S1x32x512_S1x32x512_0_0_0
abbrev r1 : Rect S1x128x512 := Rect.unit (s := S1x128x512) ![0, 0, 0] S1x128x512.size inb_S1x128x512_S1x128x512_0_0_0
abbrev r2 : Rect S512x64 := Rect.unit (s := S512x64) ![0, 0] S512x64.size inb_S512x64_S512x64_0_0
abbrev r4 : Rect S64x512 := Rect.unit (s := S64x512) ![0, 0] S64x512.size inb_S64x512_S64x512_0_0
abbrev r5 : Rect S1x32x128x512 := Rect.unit (s := S1x32x128x512) ![0, 0, 0, 0] S1x32x128x512.size inb_S1x32x128x512_S1x32x128x512_0_0_0_0

/-! ## What the body leaves in the output window's buffer -/

/-- The output window's staging buffer after the body, from the input windows' blocks: its one store, of the payload of
    the five loaded blocks, through the whole buffer. -/
def out5 (x0 : Vec F S1x32x512 .f32) (x1 : Vec F S1x128x512 .f32) (x2 : Vec F S512x64 .f32) (x3 : Vec F S512x64 .f32) (x4 : Vec F S64x512 .f32) :
    Vec F S1x32x128x512 .f32 :=
  View.canon [⟨r5, k0_pay1 (View.ld x0 r0) (View.ld x1 r1) (View.ld x2 r2) (View.ld x3 r2) (View.ld x4 r4)⟩]

/-- The one store covers the buffer. -/
theorem cover5 (p0 : Vec F S1x32x128x512 .f32) (y : S1x32x128x512.Idx) :
    ∃ pc ∈ ([⟨r5, p0⟩] : List (View.Piece (Elt F) S1x32x128x512 .f32)), y ∈ pc.1.set :=
  View.cover_of_tiled [⟨r5, p0⟩] S1x32x128x512.size (by rfl) y

/-! ## The body's triple -/

set_option maxHeartbeats 1000000 in
/-- The kernel body on whole staging memrefs, the inputs' at read contents `xW` and the output's at anything, runs to the
    continuation holding the inputs' as they were and the output's at `out5` of the inputs'. -/
theorem sound_kernel (c : Dev nD) (E : Set ℕ) (i : grid0.Coords)
    (arg3 : Memref sig .tc .vmem S1x32x512 .f32) (harg3 : arg3.IsWhole) (arg4 : Memref sig .tc .vmem S1x128x512 .f32) (harg4 : arg4.IsWhole)
    (arg5 : Memref sig .tc .vmem S512x64 .f32) (harg5 : arg5.IsWhole) (arg6 : Memref sig .tc .vmem S512x64 .f32) (harg6 : arg6.IsWhole)
    (arg7 : Memref sig .tc .vmem S64x512 .f32) (harg7 : arg7.IsWhole) (arg8 : Memref sig .tc .vmem S1x32x128x512 .f32) (harg8 : arg8.IsWhole)
    (x0 : Vec F S1x32x512 .f32) (x1 : Vec F S1x128x512 .f32) (x2 : Vec F S512x64 .f32) (x3 : Vec F S512x64 .f32) (x4 : Vec F S64x512 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (out5 x0 x1 x2 x3 x4)) -∗ K ⟨⟩))
      ⊢ wp frame (wpE (defs₀ (F := F)) Variants.none c none) E (cc0__kernel i arg3 harg3 arg4 harg4 arg5 harg5 arg6 harg6 arg7 harg7 arg8 harg8) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of the pipeline on core `c`: the arrays as the region finds them; after the body at point `t` each input's
    buffer at its block and the output's at `out5` of the input blocks; the invariant the scoped rest; nothing owed; the
    activation array's two windows at a half share each, every other input at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t
    = out5 (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The shared buffer dealt between its two windows -/

/-- The five distinct buffers behind the six windows' arrays, each whole at the full share, are the proof data's arrays
    at entry: the activation array's full share splits into the two halves its two windows hold. -/
theorem split_arrays (c : Dev nD) :
    (Pipeline.arrBufs spec0 c (V m c) : sProp 𝕄) ⊢ (dats m 0 c).arrays ((dats m 0 c).arrAt · 0) := by
  rw [show (Pipeline.arrBufs spec0 c (V m c) : sProp 𝕄)
      = iprop((((c : Thread nD τ).loc main_arg0) ↦{fullShare} V m c main_arg0)
        ∗ (((c : Thread nD τ).loc main_v0) ↦{fullShare} V m c main_v0)
        ∗ (((c : Thread nD τ).loc main_v1) ↦{fullShare} V m c main_v1)
        ∗ (((c : Thread nD τ).loc main_v2) ↦{fullShare} V m c main_v2)
        ∗ (((c : Thread nD τ).loc main_v3) ↦{fullShare} V m c main_v3))
      from Pipeline.arrBufs_eq_of_list spec0 c (V m c) [main_arg0, main_v0, main_v1, main_v2, main_v3] (by decide) (by decide)]
  unfold Dat.arrays
  rw [bigSep_W0]
  rw [(arr_whole0 0).set_eq_univ, (arr_whole0 2).set_eq_univ, (arr_whole0 3).set_eq_univ,
    (arr_whole0 4).set_eq_univ, (arr_whole0 5).set_eq_univ]
  show _ ⊢ iprop((((c : Thread nD τ).loc main_arg0) ↦{fullShare.left} V m c main_arg0)
      ∗ (((c : Thread nD τ).loc main_arg0) ↦{fullShare.right} V m c main_arg0)
      ∗ (((c : Thread nD τ).loc main_v0) ↦{fullShare} V m c main_v0)
      ∗ (((c : Thread nD τ).loc main_v1) ↦{fullShare} V m c main_v1)
      ∗ (((c : Thread nD τ).loc main_v2) ↦{fullShare} V m c main_v2)
      ∗ (((c : Thread nD τ).loc main_v3) ↦{fullShare} V m c main_v3))
  iintro ⟨H0, H1, H2, H3, H4⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  isplitl [H2]; · iexact H2
  isplitl [H3]; · iexact H3
  iexact H4

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer as the
    region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := split_arrays m) (hin := fun _ => .rfl) (hout := fun _ => .rfl)

/-- After the run the activation array is as launched: its windows stage it and never write it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
/-- After the run each weight array is as launched: no window stands on it, and only its transpose was computed. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- THE FRAME: @main runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨kept_main_arg0 m r h c, kept_main_arg1 m r h c, kept_main_arg2 m r h c, kept_main_arg3 m r h c⟩)
    (run_main m ρ)

end Cert.Kernel.Frame

end
-- ==== Proof.KernelIdealFrame.lean ====
/-
  The frame of `KernelIdeal`: @main transposes the three weight matrices on the host and then runs ONE pipelined kernel
  over the grid (b, i, j) ∈ 2 × 16 × 4. The kernel reads the activation array `t` through TWO input windows — rows
  32·i … 32·i+31 of batch b (window 0) and rows 128·j … 128·j+127 of batch b (window 1) — so the two windows stand on
  ONE buffer, whose full share is dealt between them in halves; the transposed weights are whole-array windows fetched
  once, and the output window's block (b, i, j) is written back at every point.

  Proved here, for every float instance `F`: the contents of the buffers when the region is entered (`V`: the
  arguments as launched, the three transposes computed), what each input window's staging buffer holds at each point
  (its block, `iblk`), what the body leaves in the output window's buffer (`out5`: its one whole-buffer store, the
  payload of the loaded blocks), the body's triple, the proof data, the body obligation, how the shared buffer is
  split between the two windows, the run (`run_main`) and the frame (`frame`).
-/
import proofs.«166823_j40913858461802_2_alg».proof.Proof.Gen.KernelIdeal.Launch
import proofs.«166823_j40913858461802_2_alg».proof.Proof.Gen.KernelIdeal.Skeleton
import proofs.«166823_j40913858461802_2_alg».proof.Proof.Gen.KernelIdeal.Points
import proofs.«166823_j40913858461802_2_alg».proof.Proof.LibFrameShared
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the three host transposes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host transposes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument: the region finds each as launched. -/
theorem V_arg (b : Ref sig .tc) (h0 : b ≠ main_v0) (h1 : b ≠ main_v1) (h2 : b ≠ main_v2) (c : Dev nD) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

theorem V_main_arg0 (c : Dev nD) : V m c main_arg0 = m ((c : Thread nD τ).loc main_arg0) := V_arg m main_arg0 (by decide) (by decide) (by decide) c
theorem V_main_arg1 (c : Dev nD) : V m c main_arg1 = m ((c : Thread nD τ).loc main_arg1) := V_arg m main_arg1 (by decide) (by decide) (by decide) c
theorem V_main_arg2 (c : Dev nD) : V m c main_arg2 = m ((c : Thread nD τ).loc main_arg2) := V_arg m main_arg2 (by decide) (by decide) (by decide) c
theorem V_main_arg3 (c : Dev nD) : V m c main_arg3 = m ((c : Thread nD τ).loc main_arg3) := V_arg m main_arg3 (by decide) (by decide) (by decide) c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: unfetched, the block
    index has not moved since the last fetch and the body leaves the block in place. One lemma per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0 : Rect S1x32x512 := Rect.unit (s := S1x32x512) ![0, 0, 0] S1x32x512.size inb_S1x32x512_S1x32x512_0_0_0
abbrev r1 : Rect S1x128x512 := Rect.unit (s := S1x128x512) ![0, 0, 0] S1x128x512.size inb_S1x128x512_S1x128x512_0_0_0
abbrev r2 : Rect S512x64 := Rect.unit (s := S512x64) ![0, 0] S512x64.size inb_S512x64_S512x64_0_0
abbrev r4 : Rect S64x512 := Rect.unit (s := S64x512) ![0, 0] S64x512.size inb_S64x512_S64x512_0_0
abbrev r5 : Rect S1x32x128x512 := Rect.unit (s := S1x32x128x512) ![0, 0, 0, 0] S1x32x128x512.size inb_S1x32x128x512_S1x32x128x512_0_0_0_0

/-! ## What the body leaves in the output window's buffer -/

/-- The output window's staging buffer after the body, from the input windows' blocks: its one store, of the payload of
    the five loaded blocks, through the whole buffer. -/
def out5 (x0 : Vec F S1x32x512 .f32) (x1 : Vec F S1x128x512 .f32) (x2 : Vec F S512x64 .f32) (x3 : Vec F S512x64 .f32) (x4 : Vec F S64x512 .f32) :
    Vec F S1x32x128x512 .f32 :=
  View.canon [⟨r5, k0_pay1 (View.ld x0 r0) (View.ld x1 r1) (View.ld x2 r2) (View.ld x3 r2) (View.ld x4 r4)⟩]

/-- The one store covers the buffer. -/
theorem cover5 (p0 : Vec F S1x32x128x512 .f32) (y : S1x32x128x512.Idx) :
    ∃ pc ∈ ([⟨r5, p0⟩] : List (View.Piece (Elt F) S1x32x128x512 .f32)), y ∈ pc.1.set :=
  View.cover_of_tiled [⟨r5, p0⟩] S1x32x128x512.size (by rfl) y

/-! ## The body's triple -/

set_option maxHeartbeats 1000000 in
/-- The kernel body on whole staging memrefs, the inputs' at read contents `xW` and the output's at anything, runs to the
    continuation holding the inputs' as they were and the output's at `out5` of the inputs'. -/
theorem sound_kernel (c : Dev nD) (E : Set ℕ) (i : grid0.Coords)
    (arg3 : Memref sig .tc .vmem S1x32x512 .f32) (harg3 : arg3.IsWhole) (arg4 : Memref sig .tc .vmem S1x128x512 .f32) (harg4 : arg4.IsWhole)
    (arg5 : Memref sig .tc .vmem S512x64 .f32) (harg5 : arg5.IsWhole) (arg6 : Memref sig .tc .vmem S512x64 .f32) (harg6 : arg6.IsWhole)
    (arg7 : Memref sig .tc .vmem S64x512 .f32) (harg7 : arg7.IsWhole) (arg8 : Memref sig .tc .vmem S1x32x128x512 .f32) (harg8 : arg8.IsWhole)
    (x0 : Vec F S1x32x512 .f32) (x1 : Vec F S1x128x512 .f32) (x2 : Vec F S512x64 .f32) (x3 : Vec F S512x64 .f32) (x4 : Vec F S64x512 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (out5 x0 x1 x2 x3 x4)) -∗ K ⟨⟩))
      ⊢ wp frame (wpE (defs₀ (F := F)) Variants.none c none) E (cc0__kernel i arg3 harg3 arg4 harg4 arg5 harg5 arg6 harg6 arg7 harg7 arg8 harg8) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of the pipeline on core `c`: the arrays as the region finds them; after the body at point `t` each input's
    buffer at its block and the output's at `out5` of the input blocks; the invariant the scoped rest; nothing owed; the
    activation array's two windows at a half share each, every other input at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t
    = out5 (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The shared buffer dealt between its two windows -/

/-- The five distinct buffers behind the six windows' arrays, each whole at the full share, are the proof data's arrays
    at entry: the activation array's full share splits into the two halves its two windows hold. -/
theorem split_arrays (c : Dev nD) :
    (Pipeline.arrBufs spec0 c (V m c) : sProp 𝕄) ⊢ (dats m 0 c).arrays ((dats m 0 c).arrAt · 0) := by
  rw [show (Pipeline.arrBufs spec0 c (V m c) : sProp 𝕄)
      = iprop((((c : Thread nD τ).loc main_arg0) ↦{fullShare} V m c main_arg0)
        ∗ (((c : Thread nD τ).loc main_v0) ↦{fullShare} V m c main_v0)
        ∗ (((c : Thread nD τ).loc main_v1) ↦{fullShare} V m c main_v1)
        ∗ (((c : Thread nD τ).loc main_v2) ↦{fullShare} V m c main_v2)
        ∗ (((c : Thread nD τ).loc main_v3) ↦{fullShare} V m c main_v3))
      from Pipeline.arrBufs_eq_of_list spec0 c (V m c) [main_arg0, main_v0, main_v1, main_v2, main_v3] (by decide) (by decide)]
  unfold Dat.arrays
  rw [bigSep_W0]
  rw [(arr_whole0 0).set_eq_univ, (arr_whole0 2).set_eq_univ, (arr_whole0 3).set_eq_univ,
    (arr_whole0 4).set_eq_univ, (arr_whole0 5).set_eq_univ]
  show _ ⊢ iprop((((c : Thread nD τ).loc main_arg0) ↦{fullShare.left} V m c main_arg0)
      ∗ (((c : Thread nD τ).loc main_arg0) ↦{fullShare.right} V m c main_arg0)
      ∗ (((c : Thread nD τ).loc main_v0) ↦{fullShare} V m c main_v0)
      ∗ (((c : Thread nD τ).loc main_v1) ↦{fullShare} V m c main_v1)
      ∗ (((c : Thread nD τ).loc main_v2) ↦{fullShare} V m c main_v2)
      ∗ (((c : Thread nD τ).loc main_v3) ↦{fullShare} V m c main_v3))
  iintro ⟨H0, H1, H2, H3, H4⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  isplitl [H2]; · iexact H2
  isplitl [H3]; · iexact H3
  iexact H4

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer as the
    region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := split_arrays m) (hin := fun _ => .rfl) (hout := fun _ => .rfl)

/-- After the run the activation array is as launched: its windows stage it and never write it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
/-- After the run each weight array is as launched: no window stands on it, and only its transpose was computed. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- THE FRAME: @main runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨kept_main_arg0 m r h c, kept_main_arg1 m r h c, kept_main_arg2 m r h c, kept_main_arg3 m r h c⟩)
    (run_main m ρ)

end Cert.KernelIdeal.Frame

end
-- ==== Proof.Spec.lean ====
/-
  The specification: pairwise products of two low-rank projections, mapped back to the feature axis.

  For an activation array t[b, n, d] (2 × 512 × 512) and weights Wq, Wk (64 × 512) and Wv (512 × 64) the result is

      κ[b, i, j, d] = Σ_e (Σ_d' t[b, i, d'] · Wq[e, d']) · (Σ_d' t[b, j, d'] · Wk[e, d']) · Wv[d, e]

  over the extended reals: row i and row j of batch b are projected to 64 features, the projections are multiplied
  feature by feature, and the 64 products are mapped back to 512 features by Wv. Both programs compute this sum in
  this very arrangement, so no algebraic law beyond reading each operation at an entry is needed, and nothing is asked
  of the inputs.

  `blockPairs` is the same expression on the blocks a grid point of the kernel loads: 32 rows and 128 rows of one
  batch, against the TRANSPOSED weights.
-/
import Idealize.ShloMosaic.PureOps.Ideal
import Idealize.ShloMosaic.Lib.ValueIdx

noncomputable section

namespace Cert.PairProj

open Idealize.ShloMosaic Idealize.ShloMosaic.ValueIdx

/-- Row n of batch b projected on feature e: Σ_d t[b, n, d] · w[e, d]. -/
def proj (t : (⟨3, ![2, 512, 512]⟩ : Shape).Idx → EReal) (w : (⟨2, ![64, 512]⟩ : Shape).Idx → EReal)
    (b : Fin 2) (n : Fin 512) (e : Fin 64) : EReal :=
  ∑ d : Fin 512, t (ix3 b n d) * w (ix2 e d)

/-- The result array, entry by entry. -/
def kappa (t : (⟨3, ![2, 512, 512]⟩ : Shape).Idx → EReal) (wq wk : (⟨2, ![64, 512]⟩ : Shape).Idx → EReal)
    (wv : (⟨2, ![512, 64]⟩ : Shape).Idx → EReal) : (⟨4, ![2, 512, 512, 512]⟩ : Shape).Idx → EReal :=
  fun i => ∑ e : Fin 64, (proj t wq (i 0) (i 1) e * proj t wk (i 0) (i 2) e) * wv (ix2 (i 3) e)

/-- The same on one grid point's blocks: 32 rows `x0` and 128 rows `x1` of one batch, the transposed projections
    `x2`, `x3` (512 × 64) and the transposed back-map `x4` (64 × 512), at row i, row j and feature d. -/
def blockPairs (x0 : (⟨3, ![1, 32, 512]⟩ : Shape).Idx → EReal) (x1 : (⟨3, ![1, 128, 512]⟩ : Shape).Idx → EReal)
    (x2 x3 : (⟨2, ![512, 64]⟩ : Shape).Idx → EReal) (x4 : (⟨2, ![64, 512]⟩ : Shape).Idx → EReal)
    (i : Fin 32) (j : Fin 128) (d : Fin 512) : EReal :=
  ∑ e : Fin 64, ((∑ d' : Fin 512, x0 (ix3 (0 : Fin 1) i d') * x2 (ix2 d' e))
      * (∑ d' : Fin 512, x1 (ix3 (0 : Fin 1) j d') * x3 (ix2 d' e))) * x4 (ix2 e d)

end Cert.PairProj

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibPairLayout.lean ====
/-
  Reusable lemmas: the layout operations of a pairwise (outer) combination of two row blocks, read at an entry.

  A kernel that combines every row i of an [a, c] block with every row k of a [b, c] block builds the [a, b, c] array
  of pairs by inserting a unit axis ([a, c] → [a, 1, c], [b, c] → [1, b, c]) and broadcasting along it; flattens the
  pairs to the rows r = i·b + k of an [a·b, c] matrix for a matrix product and back; lays a [c] vector along every pair
  ([c] → [1, 1, c] → [a, b, c]); reads a [c, 1] column as a [c] vector; and sums over the last axis.  Each lemma reads
  one such operation at an entry written by its coordinates.  Generic in the extents and in the element type.
-/
import Idealize.ShloMosaic.Lib.Pipeline.Value
import Idealize.ShloMosaic.Lib.ValueIdx
import Idealize.ShloMosaic.PureOps.Ideal.Laws

noncomputable section

namespace Cert.PairLayout

open Idealize.ShloMosaic Idealize.ShloMosaic.ValueIdx

variable {α : Type} {a b c n : ℕ}

/-- An [a, c] array viewed [a, 1, c] reads, at (i, u, j), the operand at (i, j). -/
theorem shapeCast_ac_a1c_apply (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An [a, 1, c] array broadcast to [a, b, c] reads, at (i, k, j), the operand at (i, 0, j). -/
theorem broadcastTo_a1c_abc_apply (x : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ x h (ix3 i k j) = x (ix3 i (0 : Fin 1) j) := by
  refine broadcastTo_apply x h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A [1, b, c] array broadcast to [a, b, c] reads, at (i, k, j), the operand at (0, k, j). -/
theorem broadcastTo_1bc_abc_apply (x : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ x h (ix3 i k j) = x (ix3 (0 : Fin 1) k j) := by
  refine broadcastTo_apply x h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- A [1, 1, c] array broadcast to [a, b, c] reads, at (i, k, j), the operand at (0, 0, j). -/
theorem broadcastTo_11c_abc_apply (x : (⟨3, ![1, 1, c]⟩ : Shape).Idx → α)
    (h : (⟨3, ![1, 1, c]⟩ : Shape).Broadcasts ⟨3, ![a, b, c]⟩) (i : Fin a) (k : Fin b) (j : Fin c) :
    broadcastTo ⟨3, ![a, b, c]⟩ x h (ix3 i k j) = x (ix3 (0 : Fin 1) (0 : Fin 1) j) := by
  refine broadcastTo_apply x h (ix3 i k j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-- A [c] vector viewed [1, 1, c] reads, at (u, v, j), the operand at j. -/
theorem shapeCast_c_11c_apply (x : (⟨1, ![c]⟩ : Shape).Idx → α)
    (h : (⟨1, ![c]⟩ : Shape).ShapeCasts ⟨3, ![1, 1, c]⟩) (u v : Fin 1) (j : Fin c) :
    shapeCast ⟨3, ![1, 1, c]⟩ x h (ix3 u v j) = x (ix1 j) :=
  shapeCast_apply x h _ _ (by
    have hu : u.val = 0 := by omega
    have hv : v.val = 0 := by omega
    rw [Shape.rowMajor_val_three, Shape.rowMajor_val_one]
    show j.val = (u.val * 1 + v.val) * c + j.val
    simp only [hu, hv, Nat.zero_mul, Nat.zero_add, Nat.mul_one, Nat.add_zero])

/-- A [c, 1] column viewed as a [c] vector reads, at j, the operand at (j, 0). -/
theorem shapeCast_c1_c_apply (x : (⟨2, ![c, 1]⟩ : Shape).Idx → α)
    (h : (⟨2, ![c, 1]⟩ : Shape).ShapeCasts ⟨1, ![c]⟩) (j : Fin c) :
    shapeCast ⟨1, ![c]⟩ x h (ix1 j) = x (ix2 j (0 : Fin 1)) :=
  shapeCast_apply x h _ _ (by
    rw [Shape.rowMajor_val_two, Shape.rowMajor_val_one]
    show j.val * 1 + 0 = j.val
    rw [Nat.mul_one, Nat.add_zero])

/-- The pairs flattened: an [a, b, c] array viewed as the [n, c] matrix (n = a·b) reads, at row r = i·b + k and
    column j, the operand at (i, k, j). -/
theorem shapeCast_abc_nc_apply (x : (⟨3, ![a, b, c]⟩ : Shape).Idx → α)
    (h : (⟨3, ![a, b, c]⟩ : Shape).ShapeCasts ⟨2, ![n, c]⟩) (i : Fin a) (k : Fin b) (j : Fin c) (r : Fin n)
    (hr : r.val = i.val * b + k.val) :
    shapeCast ⟨2, ![n, c]⟩ x h (ix2 r j) = x (ix3 i k j) :=
  shapeCast_apply x h _ _ (by
    rw [Shape.rowMajor_val_three, Shape.rowMajor_val_two]
    show (i.val * b + k.val) * c + j.val = r.val * c + j.val
    rw [hr])

/-- And back: an [n, c] matrix (n = a·b) viewed [a, b, c] reads, at (i, k, j), the operand at row r = i·b + k. -/
theorem shapeCast_nc_abc_apply (x : (⟨2, ![n, c]⟩ : Shape).Idx → α)
    (h : (⟨2, ![n, c]⟩ : Shape).ShapeCasts ⟨3, ![a, b, c]⟩) (i : Fin a) (k : Fin b) (j : Fin c) (r : Fin n)
    (hr : r.val = i.val * b + k.val) :
    shapeCast ⟨3, ![a, b, c]⟩ x h (ix3 i k j) = x (ix2 r j) :=
  shapeCast_apply x h _ _ (by
    rw [Shape.rowMajor_val_three, Shape.rowMajor_val_two]
    show r.val * c + j.val = (i.val * b + k.val) * c + j.val
    rw [hr])

/-- The source index of a sum over the last axis: the pair (i, k) with the coordinate j inserted is (i, k, j). -/
theorem lift_last (h : (⟨3, ![a, b, c]⟩ : Shape).Reduces [(2 : Fin 3)] ⟨2, ![a, b]⟩) (i : Fin a) (k : Fin b) (j : Fin c) :
    h.lift (ix2 i k) j = ix3 i k j := by
  funext d
  apply Fin.ext
  show h.liftVal (ix2 i k) j.val d = (ix3 i k j d).val
  unfold Shape.Reduces.liftVal
  match d with
  | ⟨0, _⟩ => rfl
  | ⟨1, _⟩ => rfl
  | ⟨2, _⟩ => rfl

/-- Over the extended reals a sum over the last axis of an [a, b, c] array, from the zero accumulator, is at the pair
    (i, k) the sum over j of the entries (i, k, j). -/
theorem laneSum_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (i : Fin a) (k : Fin b) :
    multiReduction .add [(2 : Fin 3)] ⟨2, ![a, b]⟩ src acc h hφ hacc (ix2 i k) = ∑ j : Fin c, src (ix3 i k j) := by
  refine (Ideal.multiReduction_add_single src acc h hφ hacc (ix2 i k)).trans ?_
  show ∑ j : Fin c, src (h.lift (ix2 i k) j) = _
  exact Finset.sum_congr rfl fun j _ => congrArg src (lift_last h i k j)

end Cert.PairLayout

end
-- ==== Proof.KernelPayload.lean ====
/-
  The kernel body's arithmetic at an entry. At a grid point the body loads 32 rows `x0` and 128 rows `x1` of one batch
  of the activations (each a [1, R, 512] block) and the three transposed weights, and stores ONE value: both row blocks
  are multiplied on the matrix unit with their transposed projection (512 × 64); the [32, 64] and [128, 64] results
  are laid along each other's row axis ([32, 1, 64] and [1, 128, 64], broadcast to [32, 128, 64]) and multiplied entry
  by entry; the 32·128 pairs are flattened to the rows r = 128·i + j of a [4096, 64] matrix, multiplied with the
  transposed back-map (64 × 512), and unflattened to the [1, 32, 128, 512] block that is stored. The changes of float
  format in between are the identity over the extended reals. Read at the entry (i, j, d) of the stored block this is

      Σ_e (Σ_d' x0[0, i, d'] · x2[d', e]) · (Σ_d' x1[0, j, d'] · x3[d', e]) · x4[e, d].
-/
import proofs.«166823_j40913858461802_2_alg».proof.Proof.Gen.KernelIdeal.Skeleton
import proofs.«166823_j40913858461802_2_alg».proof.Proof.Spec
import proofs.«166823_j40913858461802_2_alg».proof.Proof.LibMatmulNN
import proofs.«166823_j40913858461802_2_alg».proof.Proof.LibPairLayout
import Idealize.ShloMosaic.Lib.ValueLayout
import Idealize.ShloMosaic.Lib.Pipeline.Value

noncomputable section

namespace Cert.KernelIdeal.Payload

open Cert.KernelIdeal Cert.KernelIdeal.Gen Cert.PairProj
open Idealize.ShloMosaic Idealize.ShloMosaic.ValueIdx

/-- One projection on the matrix unit: an R-row block of the activations, cast to [R, 512], times a transposed
    projection (512 × 64), into zeros, at row i and feature e. -/
theorem proj_apply {R : ℕ} (x : (⟨3, ![1, R, 512]⟩ : Shape).Idx → EReal) (w : (⟨2, ![512, 64]⟩ : Shape).Idx → EReal)
    (D : DotDims ⟨2, ![R, 512]⟩ ⟨2, ![512, 64]⟩ ⟨2, ![R, 64]⟩) (hD : D = DotDims.plain R 512 64)
    (hx : (⟨3, ![1, R, 512]⟩ : Shape).ShapeCasts ⟨2, ![R, 512]⟩) (hw : (⟨2, ![512, 64]⟩ : Shape).ShapeCasts ⟨2, ![512, 64]⟩)
    (hb : FTy.bits .bf16 < FTy.bits .f32) (i : Fin R) (e : Fin 64) :
    matmul (F := Ideal) D none (truncf (φ := .f32) .bf16 (shapeCast ⟨2, ![R, 512]⟩ x hx) hb)
        (truncf (φ := .f32) .bf16 (shapeCast ⟨2, ![512, 64]⟩ w hw) hb) (constant ⟨2, ![R, 64]⟩ .f32 0x00000000#32) (ix2 i e)
      = ∑ d' : Fin 512, x (ix3 (0 : Fin 1) i d') * w (ix2 d' e) := by
  refine (Cert.MatmulNN.matmul_zero_apply D hD none _ _ i e).trans ?_
  refine Finset.sum_congr rfl fun d' _ => ?_
  refine congrArg₂ (fun a b : EReal => a * b) ?_ ?_
  · exact shapeCast_1ab_ab_apply x hx i d'
  · exact congrFun (shapeCast_self w hw) (ix2 d' e)

/-- THE PAYLOAD AT AN ENTRY: the stored block at (u, i, j, d) is the pairwise projected product of the loaded blocks. -/
theorem pay_apply (x0 : Vec Ideal S1x32x512 .f32) (x1 : Vec Ideal S1x128x512 .f32) (x2 x3 : Vec Ideal S512x64 .f32)
    (x4 : Vec Ideal S64x512 .f32) (u : Fin 1) (i : Fin 32) (j : Fin 128) (d : Fin 512) :
    k0_pay1 (F := Ideal) x0 x1 x2 x3 x4 (ix4 u i j d) = blockPairs x0 x1 x2 x3 x4 i j d := by
  unfold k0_pay1 blockPairs
  have hr : (⟨i.val * 128 + j.val, by have := i.isLt; have := j.isLt; omega⟩ : Fin 4096).val = i.val * 128 + j.val := rfl
  refine (shapeCast_abc_1abc_apply _ _ u i j d).trans ?_
  refine (Cert.PairLayout.shapeCast_nc_abc_apply _ _ i j d ⟨i.val * 128 + j.val, by have := i.isLt; have := j.isLt; omega⟩ hr).trans ?_
  refine (Cert.MatmulNN.matmul_zero_apply _ rfl none _ _ _ d).trans ?_
  refine Finset.sum_congr rfl fun e _ => ?_
  refine congrArg₂ (fun a b : EReal => a * b) ?_ ?_
  · refine (Cert.PairLayout.shapeCast_abc_nc_apply _ _ i j e _ hr).trans ?_
    refine congrArg₂ (fun a b : EReal => a * b) ?_ ?_
    · refine (Cert.PairLayout.broadcastTo_a1c_abc_apply _ _ i j e).trans ?_
      refine (Cert.PairLayout.shapeCast_ac_a1c_apply _ _ i (0 : Fin 1) e).trans ?_
      exact proj_apply x0 x2 _ rfl _ _ _ i e
    · refine (Cert.PairLayout.broadcastTo_1bc_abc_apply _ _ i j e).trans ?_
      refine (shapeCast_ab_1ab_apply _ _ (0 : Fin 1) j e).trans ?_
      exact proj_apply x1 x3 _ rfl _ _ _ j e
  · exact congrFun (shapeCast_self x4 _) (ix2 e d)

/-- THE PAYLOAD OF A GRID POINT IS ITS BLOCK OF THE SPECIFICATION. When the loaded blocks are rows `ri i` and rows `rj j` of
    batch `b` of an activation array `t0`, and the transposes of weights `wq`, `wk`, `wv`, the stored block at
    (u, i, j, d) is the specification of `t0`, `wq`, `wk`, `wv` at (b, ri i, rj j, d). -/
theorem point_eq (t0 : (⟨3, ![2, 512, 512]⟩ : Shape).Idx → EReal) (wq wk : (⟨2, ![64, 512]⟩ : Shape).Idx → EReal)
    (wv : (⟨2, ![512, 64]⟩ : Shape).Idx → EReal)
    (x0 : Vec Ideal S1x32x512 .f32) (x1 : Vec Ideal S1x128x512 .f32) (x2 x3 : Vec Ideal S512x64 .f32) (x4 : Vec Ideal S64x512 .f32)
    (b : Fin 2) (ri : Fin 32 → Fin 512) (rj : Fin 128 → Fin 512)
    (h0 : ∀ (i : Fin 32) (d' : Fin 512), x0 (ix3 (0 : Fin 1) i d') = t0 (ix3 b (ri i) d'))
    (h1 : ∀ (j : Fin 128) (d' : Fin 512), x1 (ix3 (0 : Fin 1) j d') = t0 (ix3 b (rj j) d'))
    (h2 : ∀ (d' : Fin 512) (e : Fin 64), x2 (ix2 d' e) = wq (ix2 e d'))
    (h3 : ∀ (d' : Fin 512) (e : Fin 64), x3 (ix2 d' e) = wk (ix2 e d'))
    (h4 : ∀ (e : Fin 64) (d : Fin 512), x4 (ix2 e d) = wv (ix2 d e))
    (y : S1x32x128x512.Idx) :
    k0_pay1 (F := Ideal) x0 x1 x2 x3 x4 y = kappa t0 wq wk wv (ix4 b (ri (y 1)) (rj (y 2)) (y 3)) := by
  obtain ⟨u, i, j, d, rfl⟩ : ∃ (u : Fin 1) (i : Fin 32) (j : Fin 128) (d : Fin 512), y = ix4 u i j d :=
    ⟨y 0, y 1, y 2, y 3, eq_ix4 y⟩
  rw [pay_apply]
  unfold blockPairs kappa proj
  simp only [h0, h1, h2, h3, h4]

end Cert.KernelIdeal.Payload

end
-- ==== Proof.KernelValue.lean ====
/-
  What the idealized kernel's run leaves in the result array, over the extended reals: the specification of the four
  argument arrays.

  Grid point (b, I, J) loads rows 32·I … 32·I+31 and rows 128·J … 128·J+127 of batch b of the activations and the three
  transposed weights whole, and writes back block (b, I, J) of the result: entries (b, 32·I+i, 128·J+j, d). Its payload
  at (i, j, d) is the specification at exactly that entry, so what every point writes back is its block of ONE array;
  the 2·16·4 blocks tile the result array, so after the run the array IS that array.
-/
import proofs.«166823_j40913858461802_2_alg».proof.Proof.KernelIdealFrame
import proofs.«166823_j40913858461802_2_alg».proof.Proof.KernelPayload
import Idealize.ShloMosaic.Lib.Pipeline.Value
import Idealize.ShloMosaic.Lib.ValueLayout
import Idealize.ShloMosaic.Lib.StableHlo.Run

noncomputable section

namespace Cert.KernelIdeal.Blocks

open Cert.KernelIdeal Cert.KernelIdeal.Gen Cert.KernelIdeal.Frame Cert.PairProj
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The transposed weights the region finds -/

theorem V_main_v0 (c : Dev nD) : (V m c main_v0 : S512x64.Idx → EReal)
    = transpose S512x64 [1, 0] (m ((c : Thread nD τ).loc main_arg1)) transposes_S64x512_S512x64_1_0 := by
  dsimp only [V, hostOps0]; after_results
theorem V_main_v1 (c : Dev nD) : (V m c main_v1 : S512x64.Idx → EReal)
    = transpose S512x64 [1, 0] (m ((c : Thread nD τ).loc main_arg2)) transposes_S64x512_S512x64_1_0 := by
  dsimp only [V, hostOps0]; after_results
theorem V_main_v2 (c : Dev nD) : (V m c main_v2 : S64x512.Idx → EReal)
    = transpose S64x512 [1, 0] (m ((c : Thread nD τ).loc main_arg3)) transposes_S512x64_S64x512_1_0 := by
  dsimp only [V, hostOps0]; after_results

/-! ## The result array -/

/-- What the result array ends holding: the specification of the argument arrays as launched. -/
abbrev G (c : Dev nD) : S2x512x512x512.Idx → EReal :=
  kappa (m ((c : Thread nD τ).loc main_arg0)) (m ((c : Thread nD τ).loc main_arg1)) (m ((c : Thread nD τ).loc main_arg2))
    (m ((c : Thread nD τ).loc main_arg3))

/-- The printed index maps, decided over the 128 grid points: the two activation windows follow the output's batch
    and its two row-block indices, the weights' windows stay at the origin, and the output's block indices stay in range. -/
theorem idx_facts : ∀ t : Fin cfg0.N,
      win0_0.index t (0 : Fin 3) = win0_5.index t (0 : Fin 4) ∧ win0_0.index t (1 : Fin 3) = win0_5.index t (1 : Fin 4)
    ∧ win0_0.index t (2 : Fin 3) = 0
    ∧ win0_1.index t (0 : Fin 3) = win0_5.index t (0 : Fin 4) ∧ win0_1.index t (1 : Fin 3) = win0_5.index t (2 : Fin 4)
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 4) ≤ 1 ∧ win0_5.index t (1 : Fin 4) ≤ 15 ∧ win0_5.index t (2 : Fin 4) ≤ 3
    ∧ win0_5.index t (3 : Fin 4) = 0 :=
  (by decide +kernel : ∀ t : Fin grid0.N, _)

/-- Every block of the result array is SOME point's. -/
theorem idx_onto : ∀ (q0 : Fin 2) (q1 : Fin 16) (q2 : Fin 4), ∃ t : Fin cfg0.N, win0_5.index t = ![q0.val, q1.val, q2.val, 0] :=
  (by decide +kernel : ∀ (q0 : Fin 2) (q1 : Fin 16) (q2 : Fin 4), ∃ t : Fin grid0.N, win0_5.index t = ![q0.val, q1.val, q2.val, 0])

/-- WHAT POINT `t` WRITES BACK is block `t` of the specification of the argument arrays. -/
theorem flushed5_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after5]
  unfold out5
  rw [View.canon_unit_zero hz4]
  simp only [View.ld_unit_zero (S := S1x32x512) hz3, View.ld_unit_zero (S := S1x128x512) hz3,
    View.ld_unit_zero (S := S512x64) hz2, View.ld_unit_zero (S := S64x512) hz2]
  obtain ⟨e00, e01, e02, e10, e11, e12, e20, e21, e30, e31, e40, e41, b0, b1, b2, b3⟩ := idx_facts t
  funext y
  have hy0 : (y 0).val < 1 := (y 0).isLt
  have hy1 : (y 1).val < 32 := (y 1).isLt
  have hy2 : (y 2).val < 128 := (y 2).isLt
  have hy3 : (y 3).val < 512 := (y 3).isLt
  refine (Payload.point_eq (m ((c : Thread nD τ).loc main_arg0)) (m ((c : Thread nD τ).loc main_arg1))
    (m ((c : Thread nD τ).loc main_arg2)) (m ((c : Thread nD τ).loc main_arg3))
    (iblk m c 0 t) (iblk m c 1 t) (iblk m c 2 t) (iblk m c 3 t) (iblk m c 4 t)
    ⟨win0_5.index t (0 : Fin 4), by omega⟩
    (fun i => ⟨win0_5.index t (1 : Fin 4) * 32 + i.val, by have := i.isLt; omega⟩)
    (fun j => ⟨win0_5.index t (2 : Fin 4) * 128 + j.val, by have := j.isLt; omega⟩)
    ?_ ?_ ?_ ?_ ?_ y).trans ?_
  · intro i d'
    show V m c main_arg0 (((cfg0.win 0).blk t).view.emb (ix3 (0 : Fin 1) i d')) = _
    rw [V_main_arg0]
    refine congrArg _ (funext fun a => Fin.ext ?_)
    match a with
    | ⟨0, _⟩ => show win0_0.index t (0 : Fin 3) * 1 + 1 * 0 = win0_5.index t (0 : Fin 4); omega
    | ⟨1, _⟩ => show win0_0.index t (1 : Fin 3) * 32 + 1 * i.val = win0_5.index t (1 : Fin 4) * 32 + i.val; omega
    | ⟨2, _⟩ => show win0_0.index t (2 : Fin 3) * 512 + 1 * d'.val = d'.val; omega
  · intro j d'
    show V m c main_arg0 (((cfg0.win 1).blk t).view.emb (ix3 (0 : Fin 1) j d')) = _
    rw [V_main_arg0]
    refine congrArg _ (funext fun a => Fin.ext ?_)
    match a with
    | ⟨0, _⟩ => show win0_1.index t (0 : Fin 3) * 1 + 1 * 0 = win0_5.index t (0 : Fin 4); omega
    | ⟨1, _⟩ => show win0_1.index t (1 : Fin 3) * 128 + 1 * j.val = win0_5.index t (2 : Fin 4) * 128 + j.val; omega
    | ⟨2, _⟩ => show win0_1.index t (2 : Fin 3) * 512 + 1 * d'.val = d'.val; omega
  · intro d' e
    show V m c main_v0 (((cfg0.win 2).blk t).view.emb (ix2 d' e)) = _
    have he : ((cfg0.win 2).blk t).view.emb (ix2 d' e) = ix2 d' e := funext fun a => Fin.ext (by
      match a with
      | ⟨0, _⟩ => show win0_2.index t (0 : Fin 2) * 512 + 1 * d'.val = d'.val; omega
      | ⟨1, _⟩ => show win0_2.index t (1 : Fin 2) * 64 + 1 * e.val = e.val; omega)
    rw [he, V_main_v0]
    exact transpose_ix2_apply _ _ d' e
  · intro d' e
    show V m c main_v1 (((cfg0.win 3).blk t).view.emb (ix2 d' e)) = _
    have he : ((cfg0.win 3).blk t).view.emb (ix2 d' e) = ix2 d' e := funext fun a => Fin.ext (by
      match a with
      | ⟨0, _⟩ => show win0_3.index t (0 : Fin 2) * 512 + 1 * d'.val = d'.val; omega
      | ⟨1, _⟩ => show win0_3.index t (1 : Fin 2) * 64 + 1 * e.val = e.val; omega)
    rw [he, V_main_v1]
    exact transpose_ix2_apply _ _ d' e
  · intro e d
    show V m c main_v2 (((cfg0.win 4).blk t).view.emb (ix2 e d)) = _
    have he : ((cfg0.win 4).blk t).view.emb (ix2 e d) = ix2 e d := funext fun a => Fin.ext (by
      match a with
      | ⟨0, _⟩ => show win0_4.index t (0 : Fin 2) * 64 + 1 * e.val = e.val; omega
      | ⟨1, _⟩ => show win0_4.index t (1 : Fin 2) * 512 + 1 * d.val = d.val; omega)
    rw [he, V_main_v2]
    exact transpose_ix2_apply _ _ e d
  · show G m c _ = G m c (((cfg0.win 5).blk t).view.emb y)
    refine congrArg _ (funext fun a => Fin.ext ?_)
    match a with
    | ⟨0, _⟩ => show win0_5.index t (0 : Fin 4) = win0_5.index t (0 : Fin 4) * 1 + 1 * (y 0).val; omega
    | ⟨1, _⟩ => show win0_5.index t (1 : Fin 4) * 32 + (y 1).val = win0_5.index t (1 : Fin 4) * 32 + 1 * (y 1).val; omega
    | ⟨2, _⟩ => show win0_5.index t (2 : Fin 4) * 128 + (y 2).val = win0_5.index t (2 : Fin 4) * 128 + 1 * (y 2).val; omega
    | ⟨3, _⟩ => show (y 3).val = win0_5.index t (3 : Fin 4) * 512 + 1 * (y 3).val; omega

/-- An entry of the result array is in point `t`'s block iff each coordinate is in the block's range on its axis. -/
theorem mem_blk5 (t : Fin cfg0.N) (i : S2x512x512x512.Idx) :
    i ∈ ((cfg0.win 5).blk t).view.set ↔ ∀ a : Fin 4, win0_5.index t a * S1x32x128x512.size a ≤ (i a).val
      ∧ (i a).val < win0_5.index t a * S1x32x128x512.size a + S1x32x128x512.size a := by
  show i ∈ ((View.whole main_v3).slice (win0_5.rect t)).set ↔ _
  rw [View.set_slice_whole, Rect.mem_set_unit]
  exact Iff.rfl

/-- The blocks tile the result array: entry (b, r, r', d) is in the block of the point (b, r / 32, r' / 128). -/
theorem covered5 (i : S2x512x512x512.Idx) :
    ∃ t : Fin cfg0.N, (cfg0.win 5).flush t = true ∧ i ∈ ((cfg0.win 5).blk t).view.set := by
  have hi0 : (i 0).val < 2 := (i 0).isLt
  have hi1 : (i 1).val < 512 := (i 1).isLt
  have hi2 : (i 2).val < 512 := (i 2).isLt
  have hi3 : (i 3).val < 512 := (i 3).isLt
  obtain ⟨t, ht⟩ := idx_onto ⟨(i 0).val, hi0⟩ ⟨(i 1).val / 32, by omega⟩ ⟨(i 2).val / 128, by omega⟩
  have q0 : win0_5.index t (0 : Fin 4) = (i 0).val := congrFun ht 0
  have q1 : win0_5.index t (1 : Fin 4) = (i 1).val / 32 := congrFun ht 1
  have q2 : win0_5.index t (2 : Fin 4) = (i 2).val / 128 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 32 ≤ (i 1).val ∧ (i 1).val < win0_5.index t (1 : Fin 4) * 32 + 32; omega
  | ⟨2, _⟩ => show win0_5.index t (2 : Fin 4) * 128 ≤ (i 2).val ∧ (i 2).val < win0_5.index t (2 : Fin 4) * 128 + 128; omega
  | ⟨3, _⟩ => show win0_5.index t (3 : Fin 4) * 512 ≤ (i 3).val ∧ (i 3).val < win0_5.index t (3 : Fin 4) * 512 + 512; omega

/-- THE RESULT ARRAY after the run is the specification of the argument arrays. -/
theorem final5 (c : Dev nD) : (dats m 0 c).arrAt 5 cfg0.N = G m c :=
  (dats m 0 c).arrAt_eq_of_cover 5 (G m c) (fun t _ => flushed5_eq m c t) covered5

/-- THE RUN, READ: @main runs to the end, the result array at the specification of the arguments, the arguments unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 5).trans (final5 m c), kept_main_arg0 m r h c, kept_main_arg1 m r h c,
      kept_main_arg2 m r h c, kept_main_arg3 m r h c⟩)
    (run_main m ρ)

end Cert.KernelIdeal.Blocks

end
-- ==== Proof.RefValue.lean ====
/-
  The reference computes the specification. Its @main is two projections (dot_general contracting the feature axis of
  the activations with the feature axis of a weight), the two [2, 512, 64] results laid along each other's row axis by
  broadcasts ([b, i, ·, e] and [b, ·, j, e]), their entrywise product, and a last dot_general contracting the 64
  features with the back-map's feature axis. Read at an entry (b, i, j, d) this is, term by term,

      Σ_e (Σ_d' t[b, i, d'] · Wq[e, d']) · (Σ_d' t[b, j, d'] · Wk[e, d']) · Wv[d, e].
-/
import proofs.«166823_j40913858461802_2_alg».proof.Proof.Gen.ReferenceIdeal.Read
import proofs.«166823_j40913858461802_2_alg».proof.Proof.Spec

noncomputable section

namespace Cert.ReferenceIdeal.RefValue

open Cert.ReferenceIdeal Cert.ReferenceIdeal.Read Cert.PairProj
open Idealize.ShloMosaic Idealize.ShloMosaic.ValueIdx

/-- The last stage of the reference's run, at the extended reals, is the specification of its four arguments. -/
theorem result_eq (x0 : (⟨S2x512x512, .f32⟩ : BufTy).Contents (Elt Ideal)) (x1 x2 : (⟨S64x512, .f32⟩ : BufTy).Contents (Elt Ideal))
    (x3 : (⟨S512x64, .f32⟩ : BufTy).Contents (Elt Ideal)) :
    val_main_v7 (F := Ideal) x0 x1 x2 x3 = kappa x0 x1 x2 x3 := by
  funext i
  rw [val_main_v7_apply]
  unfold kappa proj
  refine Finset.sum_congr rfl fun e _ => ?_
  rw [val_main_v6_apply, val_main_v4_apply, val_main_v2_apply, val_main_v0_apply, val_main_v5_apply, val_main_v3_apply,
    val_main_v1_apply]
  have hl0 : ∀ d : Fin 512, lidx_main_v0 (idx_main_v2 (idx_main_v4 (lidx_main_v7 i e))) d = ix3 (i 0) (i 1) d := fun d =>
    funext fun a => Fin.ext (by match a with | ⟨0, _⟩ => rfl | ⟨1, _⟩ => rfl | ⟨2, _⟩ => rfl)
  have hr0 : ∀ d : Fin 512, ridx_main_v0 (idx_main_v2 (idx_main_v4 (lidx_main_v7 i e))) d = ix2 e d := fun d =>
    funext fun a => Fin.ext (by match a with | ⟨0, _⟩ => rfl | ⟨1, _⟩ => rfl)
  have hl1 : ∀ d : Fin 512, lidx_main_v1 (idx_main_v3 (idx_main_v5 (lidx_main_v7 i e))) d = ix3 (i 0) (i 2) d := fun d =>
    funext fun a => Fin.ext (by match a with | ⟨0, _⟩ => rfl | ⟨1, _⟩ => rfl | ⟨2, _⟩ => rfl)
  have hr1 : ∀ d : Fin 512, ridx_main_v1 (idx_main_v3 (idx_main_v5 (lidx_main_v7 i e))) d = ix2 e d := fun d =>
    funext fun a => Fin.ext (by match a with | ⟨0, _⟩ => rfl | ⟨1, _⟩ => rfl)
  have hr7 : ridx_main_v7 i e = ix2 (i 3) e :=
    funext fun a => Fin.ext (by match a with | ⟨0, _⟩ => rfl | ⟨1, _⟩ => rfl)
  simp only [hl0, hr0, hl1, hr1, hr7]
  rfl

end Cert.ReferenceIdeal.RefValue

end
-- ==== Proof.lean ====
/-
  The certificate: a Pallas kernel that computes, for activations t (2 × 512 × 512) and weights Wq, Wk (64 × 512),
  Wv (512 × 64), the array

      κ[b, i, j, d] = Σ_e (Σ_d' t[b, i, d'] · Wq[e, d']) · (Σ_d' t[b, j, d'] · Wk[e, d']) · Wv[d, e],

  against the jnp reference that computes the same array by three einsums.

  The kernel tiles (b, i, j) into 2 · 16 · 4 grid points; each point reads 32 rows and 128 rows of batch b of `t`
  through two windows on the SAME array, projects both on the matrix unit with the transposed weights, multiplies
  the projections pairwise, maps the 4096 pairs back with the transposed Wv and writes one [1, 32, 128, 512] block of
  the result. The reference does the two projections by dot_general, lays them along each other by broadcasts,
  multiplies, and contracts the 64 features with Wv. Over the extended reals both are the SAME arrangement of the
  same sums (a change of float format is the identity, a matrix product into zeros is the plain sum, a host transpose
  followed by a plain product reads the weight at the swapped index), so the two results agree entry by entry with
  no algebraic law and no use of the finiteness of the inputs.

  The three frames: the two kernels' are proved by hand (the two activation windows share one buffer, whose full
  share is split in halves between them); the reference's is its run with the result dropped. The idealization
  rewrote nothing, so `preserves` is trivial.
-/
import proofs.«166823_j40913858461802_2_alg».proof.Defs
import proofs.«166823_j40913858461802_2_alg».proof.Proof.Gen.Kernel
import proofs.«166823_j40913858461802_2_alg».proof.Proof.Gen.KernelIdeal
import proofs.«166823_j40913858461802_2_alg».proof.Proof.Gen.ReferenceIdeal
import proofs.«166823_j40913858461802_2_alg».proof.Proof.Gen.Pre_finite_inputs
import proofs.«166823_j40913858461802_2_alg».proof.Proof.Gen.ReferenceIdeal.Run
import proofs.«166823_j40913858461802_2_alg».proof.Proof.Gen.ReferenceIdeal.Read
import proofs.«166823_j40913858461802_2_alg».proof.Proof.KernelFrame
import proofs.«166823_j40913858461802_2_alg».proof.Proof.KernelIdealFrame
import proofs.«166823_j40913858461802_2_alg».proof.Proof.KernelValue
import proofs.«166823_j40913858461802_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end, faults nowhere, and leaves its arguments unchanged. -/
theorem frame_k : Cert.frame_Kernel := fun m ρ _ => Cert.Kernel.Frame.frame m ρ

/-- So does the idealized kernel. -/
theorem frame_ki : Cert.frame_KernelIdeal := fun m ρ _ => Cert.KernelIdeal.Frame.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Over the extended reals the kernel's result array ends at the specification of its arguments, and the
    reference's at the same specification of arguments that agree. -/
theorem algebraic : Cert.algebraic_KernelIdeal_ReferenceIdeal := by
  intro m ρ m' ρ' _ hagree
  refine ⟨fun c => Cert.KernelIdeal.Blocks.G m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
